-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S2048x2048 : Shape := ⟨2, ![2048, 2048]⟩
abbrev S2048 : Shape := ⟨1, ![2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x8192x2048 .f32) (main_arg1 : FVec F S2048x2048 .f32) (main_arg2 : FVec F S2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x8192x2048 : Shape := ⟨3, ![4, 8192, 2048]⟩
abbrev S2048x2048 : Shape := ⟨2, ![2048, 2048]⟩
abbrev S2048 : Shape := ⟨1, ![2048]⟩
abbrev S_ : Shape := ⟨0, ![]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩

abbrev nBuf : Space → Nat
  | .hbm => 29
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .bf16⟩
  | .hbm, ⟨25, _⟩ => ⟨S32768x2048, .f32⟩
  | .hbm, ⟨26, _⟩ => ⟨S1x2048, .f32⟩
  | .hbm, ⟨27, _⟩ => ⟨S32768x2048, .f32⟩
  | .hbm, ⟨28, _⟩ => ⟨S4x8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c512_i32 : BitVec 32 := 512#32
  let v16 : BitVec 32 := Scalar.muli c0_i32 c512_i32
  v16
def k0_off1 (c0_i32 : BitVec 32) : Fin 2 → Nat :=
  let c0_8 : Index := 0#32
  let c512_i32 : BitVec 32 := 512#32
  let v16 : BitVec 32 := Scalar.muli c0_i32 c512_i32
  let v17 : BitVec 32 := v16
  let v18 : Index := Scalar.indexCast v17
  ![0, v18.toNat]
def k0_off2 (c0_i32 : BitVec 32) : Fin 2 → Nat :=
  let c512_i32 : BitVec 32 := 512#32
  let v16 : BitVec 32 := Scalar.muli c0_i32 c512_i32
  let v17 : BitVec 32 := v16
  let v31 : Index := Scalar.indexCast v17
  let c0_11 : Index := 0#32
  ![v31.toNat, 0]
def k0_mult2 : BitVec 32 :=
  let c1_i32 : BitVec 32 := 1#32
  let c512_i32_17 : BitVec 32 := 512#32
  let v39 : BitVec 32 := Scalar.muli c1_i32 c512_i32_17
  v39
def k0_mult3 : BitVec 32 :=
  let c2_i32 : BitVec 32 := 2#32
  let c512_i32_27 : BitVec 32 := 512#32
  let v62 : BitVec 32 := Scalar.muli c2_i32 c512_i32_27
  v62
def k0_mult4 : BitVec 32 :=
  let c3_i32 : BitVec 32 := 3#32
  let c512_i32_37 : BitVec 32 := 512#32
  let v85 : BitVec 32 := Scalar.muli c3_i32 c512_i32_37
  v85
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  bitsLt_bf16_f32 : FTy.bits .bf16 < FTy.bits .f32
  shapeCasts_S4x8192x2048_S32768x2048 : S4x8192x2048.ShapeCasts S32768x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  h_S512x512 : 0 < S512x512.numel
  shapeCasts_S512x512_S512x512 : S512x512.ShapeCasts S512x512
  broadcasts_S512x1_S512x512 : S512x1.Broadcasts S512x512
  shapeCasts_S32768x2048_S4x8192x2048 : S32768x2048.ShapeCasts S4x8192x2048
  dot_S512x512_S512x2048_S512x2048_1_0_0_1_n_n_wf : DotDims.WF S512x512 S512x2048 S512x2048 [1] [0] [0] [1] [] []
  hrank0 : 0 < grid0.rank
  k0_mult1_dvd : 512 ∣ k0_mult1.toNat
  k0_off1_inb : ∀ (r : Fin 4), ∀ a, (k0_off1 (BitVec.ofNat 32 r.val)) a + S512x512.size a ≤ S512x2048.size a
  k0_off2_inb : ∀ (r : Fin 4), ∀ a, (k0_off2 (BitVec.ofNat 32 r.val)) a + S512x2048.size a ≤ S2048x2048.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .f32 = 32 ∨ (Rect.block (s := S32768x2048) S512x2048.size (cc0_transform_3 i) (hinb0_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v12) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S2048x2048 : Shape := ⟨2, ![2048, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S4x8192x2048, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x2048, .f32⟩
  | .hbm, ⟨34, _⟩ => ⟨S4x8192x2048, .f32⟩
  | .hbm, ⟨35, _⟩ => ⟨S4x8192x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x8192x2048, .f32⟩
  | .hbm, ⟨40, _⟩ => ⟨S4x8192x2048, .f32⟩
  | .hbm, ⟨41, _⟩ => ⟨S_, .f32⟩
  | .hbm, ⟨42, _⟩ => ⟨S4x8192x2048, .f32⟩
  | .hbm, ⟨43, _⟩ => ⟨S4x8192x2048, .f32⟩
  | .hbm, ⟨44, _⟩ => ⟨S4x8192x2048, .f32⟩
  | .hbm, ⟨45, _⟩ => ⟨S4x8192x2048, .f32⟩
  | .hbm, ⟨46, _⟩ => ⟨S4x8192x2048, .f32⟩
  | .hbm, ⟨47, _⟩ => ⟨S1x1x2048, .f32⟩
  | .hbm, ⟨48, _⟩ => ⟨S4x8192x2048, .f32⟩
  | .hbm, ⟨49, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩

abbrev nD : Nat := 1
abbrev τ : Topo := Topo.v7x

variable {F : FTy → Type} [FloatOps F]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  reducesTo_S4x8192x2048_S4x8192_d2 : S4x8192x2048.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  bcast_S_S4x8192x2048 : S_.BroadcastsInDim S4x8192x2048 (![] : Fin 0 → Fin S4x8192x2048.rank)
  bcast_S2048_S1x1x2048_2 : S2048.BroadcastsInDim S1x1x2048 (![2] : Fin 1 → Fin S1x1x2048.rank)
  bcast_S1x1x2048_S4x8192x2048_0_1_2 : S1x1x2048.BroadcastsInDim S4x8192x2048 (![0, 1, 2] : Fin 3 → Fin S4x8192x2048.rank)
  dot_S4x8192x2048_S2048x2048_S4x8192x2048_2_1_01_0_n_n_wf : DotDims.WF S4x8192x2048 S2048x2048 S4x8192x2048 [2] [1] [0, 1] [0] [] []

variable [Facts₀]

def dot_S4x8192x2048_S2048x2048_S4x8192x2048_2_1_01_0_n_n : DotDims S4x8192x2048 S2048x2048 S4x8192x2048 where
  lhsContracting := [2]
  rhsContracting := [1]
  lhsNonContracting := [0, 1]
  rhsNonContracting := [0]
  lhsBatch := []
  rhsBatch := []
  wf := dot_S4x8192x2048_S2048x2048_S4x8192x2048_2_1_01_0_n_n_wf

class Facts : Prop extends Facts₀ where

variable [Facts]
-- ==== Proof.BlockBody.lean ====
/-
  What the kernel body leaves in its output block, as ONE term of the three input blocks.

  The body first writes the bias row, repeated down the 512 rows of the block, and then, for each of the four
  column chunks of 512 of the activation block, reads the output block back, adds that chunk's product with the
  matching 512 rows of the weight block, and writes the sum. Every store covers the whole block and every read-back
  reads the whole block, so the block ends as the last store's value, in which each read-back is the store before it:
  a chain of four accumulation steps over the bias rows.
-/
import proofs.«111622_j33449205301739_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BlockBody

open Cert.KernelIdeal Cert.KernelIdeal.Gen

variable {F : FTy → Type} [FloatOps F]

theorem zero2 : (![0, 0] : Fin 2 → Nat) = fun _ => 0 := funext fun a => by fin_cases a <;> rfl

/-- A read of the whole block after several whole-block stores sees the last of them. -/
theorem readCov_last {sig : RefSig} {κ : Kind} {sp : Space} {S : Shape} {e : EltTy} {Val : EltTy → Type} [∀ e, Nonempty (Val e)]
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- Column chunk `q` (columns `512 q … 512 q + 511`) of the activation block. -/
def xChunk (x0 : Vec F S512x2048 .f32) (q : Fin 4) : Vec F S512x512 .f32 :=
  View.ld x0 (Rect.unit (s := S512x2048) ![0, 512 * q.val] S512x512.size (fun a => by
    have := q.isLt; fin_cases a <;> simp [S512x512, S512x2048] <;> omega))

/-- Row chunk `q` (rows `512 q … 512 q + 511`) of the weight block. -/
def wChunk (x1 : Vec F S2048x2048 .bf16) (q : Fin 4) : Vec F S512x2048 .bf16 :=
  View.ld x1 (Rect.unit (s := S2048x2048) ![512 * q.val, 0] S512x2048.size (fun a => by
    have := q.isLt; fin_cases a <;> simp [S512x2048, S2048x2048] <;> omega))

/-- The block after the bias store and the first `n` accumulation steps. -/
def acc0 (x2 : Vec F S1x2048 .f32) : Vec F S512x2048 .f32 := k0_pay5 x2
def acc1 (x0 : Vec F S512x2048 .f32) (x1 : Vec F S2048x2048 .bf16) (x2 : Vec F S1x2048 .f32) : Vec F S512x2048 .f32 :=
  k0_pay6 x0 (xChunk x0 0) (wChunk x1 0) (acc0 x2)
def acc2 (x0 : Vec F S512x2048 .f32) (x1 : Vec F S2048x2048 .bf16) (x2 : Vec F S1x2048 .f32) : Vec F S512x2048 .f32 :=
  k0_pay7 (k0_pay3 x0) (k0_pay4 x0) (xChunk x0 1) (wChunk x1 1) (acc1 x0 x1 x2)
def acc3 (x0 : Vec F S512x2048 .f32) (x1 : Vec F S2048x2048 .bf16) (x2 : Vec F S1x2048 .f32) : Vec F S512x2048 .f32 :=
  k0_pay1 (k0_pay8 (k0_pay3 x0) (k0_pay4 x0) (xChunk x0 2)) (wChunk x1 2) (acc2 x0 x1 x2)
def acc4 (x0 : Vec F S512x2048 .f32) (x1 : Vec F S2048x2048 .bf16) (x2 : Vec F S1x2048 .f32) : Vec F S512x2048 .f32 :=
  k0_pay2 (k0_pay3 x0) (k0_pay4 x0) (xChunk x0 3) (wChunk x1 3) (acc3 x0 x1 x2)

/-- The output block after the body is the fourth accumulation step. -/
theorem out_eq (c : Dev nD) (i : grid0.Coords) (arg1 : Memref sig .tc .vmem S512x2048 .f32) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S512x2048 .f32) (harg4 : arg4.IsWhole)
    (x0 : Vec F S512x2048 .f32) (x1 : Vec F S2048x2048 .bf16) (x2 : Vec F S1x2048 .f32) :
    out0_A_3 c i arg1 harg1 arg2 harg2 arg3 harg3 arg4 harg4 x0 x1 x2 = acc4 x0 x1 x2 := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_cons_unit_zero (S := S512x2048) zero2]
  simp only [readCov_last (S := S512x2048) _ zero2, View.readCov_unit_zero (S := S512x2048) _ zero2,
    View.readAt_eq_ld, harg1.read_unread, harg2.read_unread, harg3.read_unread,
    View.ld_unit_zero (S := S512x2048) zero2, View.ld_unit_zero (S := S1x2048) zero2]
  rfl

end Cert.KernelIdeal.BlockBody

end
-- ==== Proof.QuantSpec.lean ====
/-
  The arithmetic of the quantized linear layer on the extended reals, apart from any program.

  A row `x` of 2048 activations is quantized to a multiple of its step `s = max(maxₖ |xₖ|, ε) / 127`: each entry is
  divided by the step, rounded to the nearest integer (ties to even), clamped to [-128, 127] and multiplied back by the
  step. The output entry is the inner product of the quantized row with a weight column, plus a bias.

  Two spellings of this value are compared here. One divides each entry by the step; the other multiplies it by the
  reciprocal `1 / s`. On the extended reals these agree whenever `s ≠ 0`, and the step is never zero: it is a positive
  number (possibly +∞) times 1/127. One sums the 2048 products at once and then adds the bias; the other starts from
  the bias and adds four partial sums of 512 products each. Addition on the extended reals is commutative and
  associative, so these agree too. Neither law needs the entries to be finite.
-/
import Idealize.ShloMosaic.PureOps.Ideal
import Idealize.ShloMosaic.PureOps.Ideal.Laws

noncomputable section

open Idealize.ShloMosaic

namespace Cert.QuantSpec

/-- The floor `ε` of a row's absolute maximum (the f32 nearest 1e-5). -/
abbrev eps : EReal := Ideal.ofBits .f32 0x3727C5AC#32
/-- The top of the integer range, 127. -/
abbrev qmax : EReal := Ideal.ofBits .f32 0x42FE0000#32
/-- The bottom of the integer range, -128. -/
abbrev qmin : EReal := Ideal.ofBits .f32 0xC3000000#32
/-- The value a running maximum starts from, -∞. -/
abbrev negInf : EReal := Ideal.ofBits .f32 0xFF800000#32

theorem qmax_eq : qmax = ((127 : ℝ) : EReal) := by
  simp [qmax, Ideal.ofBits, Ideal.ieee, -EReal.coe_mul]; norm_num

theorem eps_pos : (0 : EReal) < eps := by
  simp [eps, Ideal.ofBits, Ideal.ieee, -EReal.coe_mul]

/-- The largest absolute value of a row, as a running maximum from -∞. -/
def absMax (row : Fin 2048 → EReal) : EReal :=
  (Finset.univ : Finset (Fin 2048)).fold max negInf fun k => max (row k) (-(row k))

/-- The quantization step of a row with absolute maximum `a`. -/
def stepOf (a : EReal) : EReal := Ideal.div (max a eps) qmax

/-- An entry quantized by DIVIDING by the step. -/
def quantDiv (s x : EReal) : EReal :=
  min qmax (max qmin (Ideal.liftRound Ideal.roundHalfEven (Ideal.div x s))) * s

/-- An entry quantized by MULTIPLYING by the step's reciprocal. -/
def quantMul (s x : EReal) : EReal :=
  min qmax (max qmin (Ideal.liftRound Ideal.roundHalfEven (x * Ideal.div 1 s))) * s

/-- The product with the reciprocal of a nonzero step is the quotient by the step. -/
theorem mul_recip {s : EReal} (hs : s ≠ 0) (x : EReal) : x * Ideal.div 1 s = Ideal.div x s := by
  unfold Ideal.div
  rw [if_neg hs, if_neg hs, one_mul]

theorem quantMul_eq_quantDiv {s : EReal} (hs : s ≠ 0) (x : EReal) : quantMul s x = quantDiv s x := by
  unfold quantMul quantDiv
  rw [mul_recip hs]

/-- The step is positive, so not zero: `max a ε ≥ ε > 0`, times `1/127 > 0`. -/
theorem stepOf_ne_zero (a : EReal) : stepOf a ≠ 0 := by
  unfold stepOf
  rw [qmax_eq, Ideal.div_coe (by norm_num : (127 : ℝ) ≠ 0)]
  have h1 : (0 : EReal) < max a eps := lt_of_lt_of_le eps_pos (le_max_right _ _)
  have h2 : (0 : EReal) < ((1 / 127 : ℝ) : EReal) := by
    exact_mod_cast (by norm_num : (0 : ℝ) < 1 / 127)
  exact (EReal.mul_pos h1 h2).ne'

/-- The output entry, summed at once: the inner product of the quantized row with the weight column, plus the bias. -/
def outAt (row wcol : Fin 2048 → EReal) (b : EReal) : EReal :=
  (∑ k : Fin 2048, quantDiv (stepOf (absMax row)) (row k) * wcol k) + b

/-- Column `512 q + k` of a row of 2048, for `q < 4` and `k < 512`. -/
def col (q : Fin 4) (k : Fin 512) : Fin 2048 := ⟨512 * q.val + k.val, by have := q.isLt; have := k.isLt; omega⟩

/-- A sum over 2048 columns is the sum of its four chunks of 512. -/
theorem sum_chunks {M : Type} [AddCommMonoid M] (g : Fin 2048 → M) :
    ∑ k : Fin 2048, g k
      = (∑ k : Fin 512, g (col 0 k)) + (∑ k : Fin 512, g (col 1 k)) + (∑ k : Fin 512, g (col 2 k)) + (∑ k : Fin 512, g (col 3 k)) := by
  have e1 := Fin.sum_univ_add (a := 1536) (b := 512) g
  have e2 := Fin.sum_univ_add (a := 1024) (b := 512) (fun i => g (Fin.castAdd 512 i))
  have e3 := Fin.sum_univ_add (a := 512) (b := 512) (fun i => g (Fin.castAdd 512 (Fin.castAdd 512 i)))
  rw [e1, e2, e3]
  rfl

/-- Starting from the bias and adding the four partial sums in turn gives the whole sum plus the bias. -/
theorem chunked_eq (g : Fin 2048 → EReal) (b : EReal) :
    (((b + ∑ k : Fin 512, g (col 0 k)) + ∑ k : Fin 512, g (col 1 k)) + ∑ k : Fin 512, g (col 2 k)) + ∑ k : Fin 512, g (col 3 k)
      = (∑ k : Fin 2048, g k) + b := by
  rw [sum_chunks g]
  abel

end Cert.QuantSpec

end
-- ==== Proof.BlockValue.lean ====
/-
  The output block of the kernel body, read entry by entry on the extended reals.

  Entry `(p, o)` of the block depends on row `p` of the activation block only through that row's step
  `s = max(maxₖ |x p k|, ε) / 127` and its reciprocal: each accumulation step adds, for its chunk of 512 columns,
  the sum of the row's entries quantized by multiplying with `1 / s`, times the matching entries of weight
  column `o`. Four steps over the bias entry `o` give the bias plus the four partial sums.
-/
import proofs.«111622_j33449205301739_2_alg».proof.Proof.BlockBody
import proofs.«111622_j33449205301739_2_alg».proof.Proof.QuantSpec
import Idealize.ShloMosaic.Lib.ValueIdx
import Idealize.ShloMosaic.Lib.ValueLayout
import Idealize.ShloMosaic.PureOps.Ideal.Laws
import Idealize.ShloMosaic.PureOps.IdealRules

noncomputable section

open Idealize.ShloMosaic Idealize.ShloMosaic.TcCoe Idealize.SL.Sem

namespace Cert.KernelIdeal.BlockValue

open Cert.KernelIdeal Cert.KernelIdeal.Gen Cert.KernelIdeal.BlockBody Cert.QuantSpec Idealize.ShloMosaic.ValueIdx

/-! ## The chunks of the two input blocks -/

theorem xChunk_apply (x0 : Vec Ideal S512x2048 .f32) (q : Fin 4) (p k : Fin 512) :
    xChunk x0 q (ix2 p k) = x0 (ix2 p (col q k)) := by
  unfold xChunk
  show x0 _ = x0 _
  refine congrArg x0 (funext fun a => Fin.ext ?_)
  match a with
  | ⟨0, _⟩ => show 0 + 1 * p.val = p.val; omega
  | ⟨1, _⟩ => show 512 * q.val + 1 * k.val = 512 * q.val + k.val; omega

theorem wChunk_apply (x1 : Vec Ideal S2048x2048 .bf16) (q : Fin 4) (k : Fin 512) (o : Fin 2048) :
    wChunk x1 q (ix2 k o) = x1 (ix2 (col q k) o) := by
  unfold wChunk
  show x1 _ = x1 _
  refine congrArg x1 (funext fun a => Fin.ext ?_)
  match a with
  | ⟨0, _⟩ => show 512 * q.val + 1 * k.val = 512 * q.val + k.val; omega
  | ⟨1, _⟩ => show 0 + 1 * o.val = o.val; omega

/-! ## Layout operations on a column of 512 -/

/-- A vector of 512 written as a 512 × 1 column reads, at `(p, u)`, the vector at `p`. -/
theorem column_apply (v : S512.Idx → EReal) (h : S512.ShapeCasts S512x1) (p : Fin 512) (u : Fin 1) :
    shapeCast S512x1 v h (ix2 p u) = v (ix1 p) :=
  shapeCast_apply v h _ _ (by
    rw [Shape.rowMajor_val_two, Shape.rowMajor_val_one]
    show p.val = p.val * 1 + u.val
    omega)

/-- A 512 × 1 column repeated along 512 columns reads, at `(p, k)`, the column at `p`. -/
theorem spread_apply (v : S512x1.Idx → EReal) (h : S512x1.Broadcasts S512x512) (p k : Fin 512) :
    broadcastTo S512x512 v h (ix2 p k) = v (ix2 p (0 : Fin 1)) := by
  refine broadcastTo_apply v h (ix2 p k) (ix2 p (0 : Fin 1)) fun ax => ?_
  match ax with
  | ⟨0, _⟩ => show p.val = if (512 : Nat) = 1 then 0 else p.val; rw [if_neg (by decide)]
  | ⟨1, _⟩ => show 0 = if (1 : Nat) = 1 then 0 else k.val; rw [if_pos rfl]

/-- A row's running maximum over its 2048 columns. -/
theorem rowMax_apply (v : FVec Ideal S512x2048 .f32) (h : S512x2048.Reduces [1] S512) (hφ : FKind.Formats .f32)
    (hacc : (0xFF800000#32 : BitVec 32) = 0xFF800000#32) (p : Fin 512) :
    multiReduction .maximumf [1] S512 v 0xFF800000#32 h hφ hacc (ix1 p)
      = (Finset.univ : Finset (Fin 2048)).fold max negInf fun k => v (ix2 p k) := by
  refine (Ideal.multiReduction_maximumf_single v 0xFF800000#32 h hφ hacc (ix1 p)).trans ?_
  have e : (v ∘ h.lift (ix1 p)) = fun k : Fin 2048 => v (ix2 p k) :=
    funext fun k => congrArg v (funext fun c => Fin.ext (by
      match c with
      | ⟨0, _⟩ => rfl
      | ⟨1, _⟩ => rfl))
  rw [e]
  rfl

/-! ## Pointwise operations the library does not read at an index -/

theorem absf_at {s : Shape} {φ : FTy} (a : FVec Ideal s φ) (i : s.Idx) : absf a i = max (a i) (-(a i)) := rfl

theorem roundeven_at {s : Shape} {φ : FTy} (a : FVec Ideal s φ) (i : s.Idx) :
    roundeven a i = Ideal.liftRound Ideal.roundHalfEven (a i) := rfl

/-! ## A row's step and its reciprocal -/

/-- The step's term with its two constants as variables: row `p`'s absolute maximum, floored at `c1`, over `c2`. -/
theorem stepTerm_apply (x : FVec Ideal S512x2048 .f32) (h1 : S512x2048.ShapeCasts S512x2048) (h2 : S512x2048.Reduces [1] S512)
    (hφ : FKind.Formats .f32) (hacc : (0xFF800000#32 : BitVec 32) = 0xFF800000#32) (h3 : S512.ShapeCasts S512x1)
    (c1 c2 : Ideal .f32) (p : Fin 512) (u : Fin 1) :
    divf (maximumf (shapeCast S512x1 (multiReduction (F := Ideal) .maximumf [1] S512 (absf (shapeCast S512x2048 x h1)) 0xFF800000#32 h2 hφ hacc) h3)
        (broadcast S512x1 c1)) (broadcast S512x1 c2) (ix2 p u)
      = Ideal.div (max (absMax fun k => x (ix2 p k)) c1) c2 := by
  rw [shapeCast_self, divf_apply, maximumf_apply, broadcast_apply, broadcast_apply, column_apply, rowMax_apply]
  unfold absMax
  simp only [absf_at]

/-- Row `p`'s step: its absolute maximum, floored at ε, over 127. -/
theorem stepSize_apply (x0 : Vec Ideal S512x2048 .f32) (p : Fin 512) (u : Fin 1) :
    k0_pay3 x0 (ix2 p u) = stepOf (absMax fun k => x0 (ix2 p k)) := by
  refine (stepTerm_apply x0 Facts₀.shapeCasts_S512x2048_S512x2048 Facts₀.reduces_S512x2048_S512 (.inl rfl) rfl Facts₀.shapeCasts_S512_S512x1
    (Scalar.ofBits (F := Ideal) .f32 0x3727C5AC#32) (Scalar.ofBits (F := Ideal) .f32 0x42FE0000#32) p u).trans ?_
  rw [Ideal.ofBits_def, Ideal.ofBits_def]
  rfl

/-- The reciprocal term with its constant as a variable. -/
theorem recipTerm_apply (c : Ideal .f32) (s : FVec Ideal S512x1 .f32) (i : S512x1.Idx) :
    divf (broadcast S512x1 c) s i = Ideal.div c (s i) := by
  rw [divf_apply, broadcast_apply]

/-- The reciprocal of row `p`'s step. -/
theorem recip_apply (x0 : Vec Ideal S512x2048 .f32) (p : Fin 512) (u : Fin 1) :
    k0_pay4 x0 (ix2 p u) = Ideal.div 1 (stepOf (absMax fun k => x0 (ix2 p k))) := by
  refine (recipTerm_apply (Scalar.ofBits (F := Ideal) .f32 0x3F800000#32) (k0_pay3 x0) (ix2 p u)).trans ?_
  rw [stepSize_apply, Ideal.ofBits_def, show Ideal.ofBits .f32 0x3F800000#32 = 1 from IdealRules.sign_bit.ideal_onePat .f32]

/-! ## One accumulation step -/

/-- The shape record of the step's product: 512 × 512 by 512 × 2048, contracting the inner axis. -/
abbrev DD : DotDims S512x512 S512x2048 S512x2048 := dot_S512x512_S512x2048_S512x2048_1_0_0_1_n_n

theorem lhs_row (i : S512x2048.Idx) (q : DD.contr.Idx) : (DD.lhsIdx i q 0).val = (i 0).val := by
  unfold DotDims.lhsIdx
  rw [dif_neg (show ¬(0 : Fin S512x512.rank) ∈ DD.lhsBatch by decide), dif_pos (show (0 : Fin S512x512.rank) ∈ DD.lhsNonContracting by decide)]
  rfl
theorem lhs_col (i : S512x2048.Idx) (q : DD.contr.Idx) : (DD.lhsIdx i q 1).val = (q ⟨0, by decide⟩).val :=
  DD.lhsIdx_val_of_single rfl i q
theorem rhs_row (i : S512x2048.Idx) (q : DD.contr.Idx) : (DD.rhsIdx i q 0).val = (q ⟨0, by decide⟩).val :=
  DD.rhsIdx_val_of_single rfl i q
theorem rhs_col (i : S512x2048.Idx) (q : DD.contr.Idx) : (DD.rhsIdx i q 1).val = (i 1).val := by
  unfold DotDims.rhsIdx
  rw [dif_neg (show ¬(1 : Fin S512x2048.rank) ∈ DD.rhsBatch by decide), dif_pos (show (1 : Fin S512x2048.rank) ∈ DD.rhsNonContracting by decide)]
  rfl

/-- A 512 × 512 by 512 × 2048 product into a zero block, at `(p, o)`: the sum over the 512 inner indices. -/
theorem product_apply (l : FVec Ideal S512x512 .bf16) (r : FVec Ideal S512x2048 .bf16) (p : Fin 512) (o : Fin 2048) :
    matmul DD none l r (constant S512x2048 .f32 0x00000000#32) (ix2 p o) = ∑ k : Fin 512, l (ix2 p k) * r (ix2 k o) := by
  simp only [matmul]
  rw [Ideal.matmul_constant_zero_apply, ← Equiv.sum_comp (contrEquiv1 DD 512 rfl rfl).symm]
  refine Finset.sum_congr rfl fun k _ => ?_
  have hk := contrEquiv1_symm_val DD 512 rfl rfl k
  have el : DD.lhsIdx (ix2 p o) ((contrEquiv1 DD 512 rfl rfl).symm k) = ix2 p k := funext fun a => Fin.ext (by
    match a with
    | ⟨0, _⟩ => exact lhs_row _ _
    | ⟨1, _⟩ => exact (lhs_col _ _).trans hk)
  have er : DD.rhsIdx (ix2 p o) ((contrEquiv1 DD 512 rfl rfl).symm k) = ix2 k o := funext fun a => Fin.ext (by
    match a with
    | ⟨0, _⟩ => exact (rhs_row _ _).trans hk
    | ⟨1, _⟩ => exact rhs_col _ _)
  rw [el, er]

/-- A chunk's quantized entries, with the two clamp constants as variables. -/
theorem quantTerm_apply (xk : FVec Ideal S512x512 .f32) (v8 v10 : FVec Ideal S512x1 .f32) (hb : S512x1.Broadcasts S512x512)
    (hc : S512x512.ShapeCasts S512x512) (hbits : FTy.bits .bf16 < FTy.bits .f32) (clo chi : Ideal .f32) (p k : Fin 512) :
    (truncf .bf16 (mulf (minimumf (broadcast S512x512 chi) (maximumf (broadcast S512x512 clo)
        (roundeven (mulf (shapeCast S512x512 xk hc) (broadcastTo S512x512 v10 hb))))) (broadcastTo S512x512 v8 hb)) hbits : FVec Ideal S512x512 .bf16) (ix2 p k)
      = min chi (max clo (Ideal.liftRound Ideal.roundHalfEven (xk (ix2 p k) * v10 (ix2 p (0 : Fin 1))))) * v8 (ix2 p (0 : Fin 1)) := by
  rw [truncf_apply, mulf_apply, minimumf_apply, maximumf_apply, broadcast_apply, broadcast_apply, roundeven_at, mulf_apply,
    shapeCast_self, spread_apply, spread_apply]

/-- One accumulation step's term with the clamp constants as variables: the block before, plus the chunk's products. -/
theorem accTerm_apply (v8 v10 : FVec Ideal S512x1 .f32) (xk : FVec Ideal S512x512 .f32) (wk : FVec Ideal S512x2048 .bf16)
    (prev : FVec Ideal S512x2048 .f32) (hb : S512x1.Broadcasts S512x512) (hc : S512x512.ShapeCasts S512x512)
    (hbits : FTy.bits .bf16 < FTy.bits .f32) (hw : S512x2048.ShapeCasts S512x2048) (clo chi : Ideal .f32) (p : Fin 512) (o : Fin 2048) :
    addf (shapeCast S512x2048 prev hw) (matmul DD none
        (truncf .bf16 (mulf (minimumf (broadcast S512x512 chi) (maximumf (broadcast S512x512 clo)
          (roundeven (mulf (shapeCast S512x512 xk hc) (broadcastTo S512x512 v10 hb))))) (broadcastTo S512x512 v8 hb)) hbits)
        (shapeCast S512x2048 wk hw) (constant S512x2048 .f32 0x00000000#32)) (ix2 p o)
      = prev (ix2 p o) + ∑ k : Fin 512,
          (min chi (max clo (Ideal.liftRound Ideal.roundHalfEven (xk (ix2 p k) * v10 (ix2 p (0 : Fin 1))))) * v8 (ix2 p (0 : Fin 1))) * wk (ix2 k o) := by
  rw [addf_apply, shapeCast_self prev, product_apply]
  refine congrArg (prev (ix2 p o) + ·) (Finset.sum_congr rfl fun k _ => ?_)
  rw [quantTerm_apply, shapeCast_self wk]

/-! ## The block's entries -/

/-- The bias block's term: entry `(p, o)` is the bias row's entry `o`. -/
theorem biasTerm_apply (x2 : FVec Ideal S1x2048 .f32) (h : S1x2048.ShapeCasts S1x2048) (hb : S1x2048.Broadcasts S512x2048)
    (p : Fin 512) (o : Fin 2048) :
    broadcastTo S512x2048 (shapeCast S1x2048 (shapeCast S1x2048 x2 h) h) hb (ix2 p o) = x2 (ix2 (0 : Fin 1) o) := by
  rw [shapeCast_self, shapeCast_self]
  exact broadcastTo_1b_ab_apply _ _ p o

theorem bias_apply (x2 : Vec Ideal S1x2048 .f32) (p : Fin 512) (o : Fin 2048) :
    acc0 x2 (ix2 p o) = x2 (ix2 (0 : Fin 1) o) :=
  biasTerm_apply x2 Facts₀.shapeCasts_S1x2048_S1x2048 Facts₀.broadcasts_S1x2048_S512x2048 p o

/-- What accumulation step `q` adds at `(p, o)`, as the body computes it. -/
def added (x0 : Vec Ideal S512x2048 .f32) (x1 : Vec Ideal S2048x2048 .bf16) (q : Fin 4) (p : Fin 512) (o : Fin 2048) : EReal :=
  ∑ k : Fin 512,
    (min (Scalar.ofBits (F := Ideal) .f32 0x42FE0000#32) (max (Scalar.ofBits (F := Ideal) .f32 0xC3000000#32)
      (Ideal.liftRound Ideal.roundHalfEven (xChunk x0 q (ix2 p k) * k0_pay4 x0 (ix2 p (0 : Fin 1))))) * k0_pay3 x0 (ix2 p (0 : Fin 1)))
      * wChunk x1 q (ix2 k o)

theorem step1_apply (x0 : Vec Ideal S512x2048 .f32) (x1 : Vec Ideal S2048x2048 .bf16) (x2 : Vec Ideal S1x2048 .f32) (p : Fin 512) (o : Fin 2048) :
    acc1 x0 x1 x2 (ix2 p o) = acc0 x2 (ix2 p o) + added x0 x1 0 p o :=
  accTerm_apply (k0_pay3 x0) (k0_pay4 x0) (xChunk x0 0) (wChunk x1 0) (acc0 x2) Facts₀.broadcasts_S512x1_S512x512
    Facts₀.shapeCasts_S512x512_S512x512 Facts₀.bitsLt_bf16_f32 Facts₀.shapeCasts_S512x2048_S512x2048
    (Scalar.ofBits (F := Ideal) .f32 0xC3000000#32) (Scalar.ofBits (F := Ideal) .f32 0x42FE0000#32) p o

theorem step2_apply (x0 : Vec Ideal S512x2048 .f32) (x1 : Vec Ideal S2048x2048 .bf16) (x2 : Vec Ideal S1x2048 .f32) (p : Fin 512) (o : Fin 2048) :
    acc2 x0 x1 x2 (ix2 p o) = acc1 x0 x1 x2 (ix2 p o) + added x0 x1 1 p o :=
  accTerm_apply (k0_pay3 x0) (k0_pay4 x0) (xChunk x0 1) (wChunk x1 1) (acc1 x0 x1 x2) Facts₀.broadcasts_S512x1_S512x512
    Facts₀.shapeCasts_S512x512_S512x512 Facts₀.bitsLt_bf16_f32 Facts₀.shapeCasts_S512x2048_S512x2048
    (Scalar.ofBits (F := Ideal) .f32 0xC3000000#32) (Scalar.ofBits (F := Ideal) .f32 0x42FE0000#32) p o

theorem step3_apply (x0 : Vec Ideal S512x2048 .f32) (x1 : Vec Ideal S2048x2048 .bf16) (x2 : Vec Ideal S1x2048 .f32) (p : Fin 512) (o : Fin 2048) :
    acc3 x0 x1 x2 (ix2 p o) = acc2 x0 x1 x2 (ix2 p o) + added x0 x1 2 p o :=
  accTerm_apply (k0_pay3 x0) (k0_pay4 x0) (xChunk x0 2) (wChunk x1 2) (acc2 x0 x1 x2) Facts₀.broadcasts_S512x1_S512x512
    Facts₀.shapeCasts_S512x512_S512x512 Facts₀.bitsLt_bf16_f32 Facts₀.shapeCasts_S512x2048_S512x2048
    (Scalar.ofBits (F := Ideal) .f32 0xC3000000#32) (Scalar.ofBits (F := Ideal) .f32 0x42FE0000#32) p o

theorem step4_apply (x0 : Vec Ideal S512x2048 .f32) (x1 : Vec Ideal S2048x2048 .bf16) (x2 : Vec Ideal S1x2048 .f32) (p : Fin 512) (o : Fin 2048) :
    acc4 x0 x1 x2 (ix2 p o) = acc3 x0 x1 x2 (ix2 p o) + added x0 x1 3 p o :=
  accTerm_apply (k0_pay3 x0) (k0_pay4 x0) (xChunk x0 3) (wChunk x1 3) (acc3 x0 x1 x2) Facts₀.broadcasts_S512x1_S512x512
    Facts₀.shapeCasts_S512x512_S512x512 Facts₀.bitsLt_bf16_f32 Facts₀.shapeCasts_S512x2048_S512x2048
    (Scalar.ofBits (F := Ideal) .f32 0xC3000000#32) (Scalar.ofBits (F := Ideal) .f32 0x42FE0000#32) p o

/-- What step `q` adds is the chunk's part of the row's quantized inner product with weight column `o`: the product
    with the step's reciprocal is the quotient by the step, the step being nonzero. -/
theorem added_eq (x0 : Vec Ideal S512x2048 .f32) (x1 : Vec Ideal S2048x2048 .bf16) (q : Fin 4) (p : Fin 512) (o : Fin 2048) :
    added x0 x1 q p o
      = ∑ k : Fin 512, quantDiv (stepOf (absMax fun j => x0 (ix2 p j))) (x0 (ix2 p (col q k))) * x1 (ix2 (col q k) o) := by
  unfold added
  refine Finset.sum_congr rfl fun k _ => ?_
  rw [xChunk_apply, wChunk_apply, recip_apply, stepSize_apply, Ideal.ofBits_def, Ideal.ofBits_def,
    ← quantMul_eq_quantDiv (stepOf_ne_zero _)]
  rfl

/-- Entry `(p, o)` of the output block: row `p` of the activation block quantized, times column `o` of the weight
    block, plus the bias row's entry `o`. -/
theorem entry_apply (x0 : Vec Ideal S512x2048 .f32) (x1 : Vec Ideal S2048x2048 .bf16) (x2 : Vec Ideal S1x2048 .f32) (p : Fin 512) (o : Fin 2048) :
    acc4 x0 x1 x2 (ix2 p o) = outAt (fun k => x0 (ix2 p k)) (fun k => x1 (ix2 k o)) (x2 (ix2 (0 : Fin 1) o)) := by
  rw [step4_apply, step3_apply, step2_apply, step1_apply, bias_apply, added_eq, added_eq, added_eq, added_eq]
  unfold outAt
  exact chunked_eq (fun k => quantDiv (stepOf (absMax fun j => x0 (ix2 p j))) (x0 (ix2 p k)) * x1 (ix2 k o)) (x2 (ix2 (0 : Fin 1) o))

end Cert.KernelIdeal.BlockValue

end
-- ==== Proof.HostSide.lean ====
/-
  The host operations around the kernel's region, read as values.

  Before the region the program flattens the activations `x` from 4 × 8192 × 2048 to 32768 × 2048, writes the bias as a
  1 × 2048 row, and computes the quantized weight matrix (the absolute-mean ternary projection of the weights, the same
  operations the reference applies), transposed and stored in a narrower float format. After the region it reshapes the
  32768 × 2048 result back to 4 × 8192 × 2048. The weight computation is kept as one function of the weight argument and
  is never opened: both programs apply it to the same array.
-/
import proofs.«111622_j33449205301739_2_alg».proof.Proof.Gen.KernelIdeal.Frame
import proofs.«111622_j33449205301739_2_alg».proof.Proof.Gen.ReferenceIdeal.Read
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.HostSide

open Cert.KernelIdeal Cert.KernelIdeal.Gen

variable {F : FTy → Type} [FloatOps F]
variable (m : (ℓ : Loc nD τ sig) → Buf (Elt F) ℓ)

/-- The quantized weight matrix `[out, in]` as a function of the weight argument: the reference's own stage. -/
abbrev qWeight (w : S2048x2048.Idx → Elt F .f32) : S2048x2048.Idx → Elt F .f32 :=
  Cert.ReferenceIdeal.Read.val_main_v9 (F := F) w

/-- The region finds the activations flattened to 32768 rows. -/
theorem entry_x (c : Dev nD) : (V m c main_v12 : S32768x2048.Idx → Elt F .f32)
    = shapeCast S32768x2048 (m ((c : Thread nD τ).loc main_arg0)) Facts₀.shapeCasts_S4x8192x2048_S32768x2048 := by
  dsimp only [V, V0]
  simp only [hostOps0, hostOps0_1, hostOps0_2, hostOps0_3, hostOps0_4, List.flatten_cons, List.flatten_nil, List.append_nil, List.cons_append, List.nil_append]
  after_results
  rfl

/-- The region finds the bias as one row of 2048. -/
theorem entry_b (c : Dev nD) : (V m c main_v13 : S1x2048.Idx → Elt F .f32)
    = shapeCast S1x2048 (m ((c : Thread nD τ).loc main_arg2)) Facts₀.shapeCasts_S2048_S1x2048 := by
  dsimp only [V, V0]
  simp only [hostOps0, hostOps0_1, hostOps0_2, hostOps0_3, hostOps0_4, List.flatten_cons, List.flatten_nil, List.append_nil, List.cons_append, List.nil_append]
  after_results
  rfl

/-- The region finds the quantized weight matrix transposed to `[in, out]` and narrowed. -/
theorem entry_w (c : Dev nD) : (V m c main_v11 : S2048x2048.Idx → Elt F .bf16)
    = truncf .bf16 (transpose S2048x2048 [1, 0] (qWeight (m ((c : Thread nD τ).loc main_arg1))) Facts₀.transposes_S2048x2048_S2048x2048_1_0) Facts₀.bitsLt_bf16_f32 := by
  dsimp only [V, V0]
  simp only [hostOps0, hostOps0_1, hostOps0_2, hostOps0_3, hostOps0_4, List.flatten_cons, List.flatten_nil, List.append_nil, List.cons_append, List.nil_append]
  after_results
  rfl

/-- After the region the result is the region's output array reshaped to 4 × 8192 × 2048. -/
theorem exit_y (c : Dev nD) : (Pipeline.afterTail₀ cfgs (dats m) 0 (V0 m) [hostOps1] c main_v15 : S4x8192x2048.Idx → Elt F .f32)
    = shapeCast S4x8192x2048 ((dats m 0 c).arrAt 3 cfg0.N) Facts₀.shapeCasts_S32768x2048_S4x8192x2048 := by
  unfold Pipeline.afterTail₀
  show StableHlo.after hostOps1 _ (Proc.devRef .tc main_v15) = _
  after_results
  rw [show (Pipeline.withArrays (cfgs 0).spec c (V0 m c) (fun w => (dats m 0 c).arrAt w (cfgs 0).N) (Proc.devRef .tc main_v14))
      = (dats m 0 c).arrAt 3 cfg0.N from Pipeline.withArrays_arr spec0 launch0.win.arr_inj c _ _ 3]
  rfl

end Cert.KernelIdeal.HostSide

end
-- ==== Proof.ArrayValue.lean ====
/-
  From the blocks to the whole result of the kernel's program.

  Grid point `t` (of 64) works on rows `512 t … 512 t + 511` of the flattened activations, on the whole weight matrix
  and the whole bias row, and writes rows `512 t … 512 t + 511` of the flattened output. So every entry `(r, o)` of the
  output array is written by exactly the point `r / 512`, and holds row `r` of the flattened activations quantized,
  times column `o` of the weight matrix as the region finds it, plus bias entry `o`. The program's result is that array
  reshaped to 4 × 8192 × 2048.
-/
import proofs.«111622_j33449205301739_2_alg».proof.Proof.BlockValue
import proofs.«111622_j33449205301739_2_alg».proof.Proof.HostSide

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BlockBody Cert.KernelIdeal.BlockValue Cert.KernelIdeal.HostSide
open Cert.QuantSpec Idealize.ShloMosaic.ValueIdx

variable (m : (ℓ : Loc nD τ sig) → Buf (Elt Ideal) ℓ) (ρ : Dev nD → PrngReg)

/-- The flattened output as one function of the flattened activations `X`, the weight matrix `W` (inner index first)
    and the bias row `B`. -/
def flatOut (X : S32768x2048.Idx → EReal) (W : S2048x2048.Idx → EReal) (B : S1x2048.Idx → EReal) : S32768x2048.Idx → EReal :=
  fun i => outAt (fun k => X (ix2 (i 0) k)) (fun k => W (ix2 k (i 1))) (B (ix2 (0 : Fin 1) (i 1)))

/-- The printed index maps over the grid: point `t` takes row block `t` of the activations and of the output, and the
    one block of the weights and of the bias. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `512 t + p` of the array. -/
def rowOf (t : Fin cfg0.N) (p : Fin 512) : Fin 32768 :=
  ⟨512 * t.val + p.val, by have := t.isLt; have hN : cfg0.N = 64 := N_0; have := p.isLt; omega⟩

/-- The activation block at point `t`. -/
theorem blk_x (c : Dev nD) (t : Fin cfg0.N) (p : Fin 512) (k : Fin 2048) :
    (iblk m c 0 t : S512x2048.Idx → EReal) (ix2 p k) = (V m c main_v12 : S32768x2048.Idx → EReal) (ix2 (rowOf t p) k) := by
  obtain ⟨e0, e1, -⟩ := idx_facts t
  unfold iblk
  rw [View.read_apply]
  show (V m c main_v12 : S32768x2048.Idx → EReal) (((cfg0.win 0).blk t).view.emb (ix2 p k)) = _
  refine congrArg (V m c main_v12 : S32768x2048.Idx → EReal) (funext fun a => Fin.ext ?_)
  match a with
  | ⟨0, _⟩ => show win0_0.index t (0 : Fin 2) * 512 + 1 * p.val = 512 * t.val + p.val; omega
  | ⟨1, _⟩ => show win0_0.index t (1 : Fin 2) * 2048 + 1 * k.val = k.val; omega

/-- The weight block at every point is the whole matrix. -/
theorem blk_w (c : Dev nD) (t : Fin cfg0.N) (k : Fin 2048) (o : Fin 2048) :
    (iblk m c 1 t : S2048x2048.Idx → EReal) (ix2 k o) = (V m c main_v11 : S2048x2048.Idx → EReal) (ix2 k o) := by
  obtain ⟨-, -, e0, e1, -⟩ := idx_facts t
  unfold iblk
  rw [View.read_apply]
  show (V m c main_v11 : S2048x2048.Idx → EReal) (((cfg0.win 1).blk t).view.emb (ix2 k o)) = _
  refine congrArg (V m c main_v11 : S2048x2048.Idx → EReal) (funext fun a => Fin.ext ?_)
  match a with
  | ⟨0, _⟩ => show win0_1.index t (0 : Fin 2) * 2048 + 1 * k.val = k.val; omega
  | ⟨1, _⟩ => show win0_1.index t (1 : Fin 2) * 2048 + 1 * o.val = o.val; omega

/-- The bias block at every point is the whole row. -/
theorem blk_b (c : Dev nD) (t : Fin cfg0.N) (u : Fin 1) (o : Fin 2048) :
    (iblk m c 2 t : S1x2048.Idx → EReal) (ix2 u o) = (V m c main_v13 : S1x2048.Idx → EReal) (ix2 u o) := by
  obtain ⟨-, -, -, -, e0, e1, -⟩ := idx_facts t
  unfold iblk
  rw [View.read_apply]
  show (V m c main_v13 : S1x2048.Idx → EReal) (((cfg0.win 2).blk t).view.emb (ix2 u o)) = _
  refine congrArg (V m c main_v13 : S1x2048.Idx → EReal) (funext fun a => Fin.ext ?_)
  match a with
  | ⟨0, _⟩ => show win0_2.index t (0 : Fin 2) * 1 + 1 * u.val = u.val; omega
  | ⟨1, _⟩ => show win0_2.index t (1 : Fin 2) * 2048 + 1 * o.val = o.val; omega

/-- Where entry `(p, o)` of point `t`'s output block sits in the array. -/
theorem emb_out (t : Fin cfg0.N) (p : Fin 512) (o : Fin 2048) :
    (((cfg0.win 3).blk t).view.emb (ix2 p o) : S32768x2048.Idx) = ix2 (rowOf t p) o := by
  obtain ⟨-, -, -, -, -, -, e0, e1⟩ := idx_facts t
  refine funext fun a => Fin.ext ?_
  match a with
  | ⟨0, _⟩ => show win0_3.index t (0 : Fin 2) * 512 + 1 * p.val = 512 * t.val + p.val; omega
  | ⟨1, _⟩ => show win0_3.index t (1 : Fin 2) * 2048 + 1 * o.val = o.val; omega

/-- What point `t` writes back is its block of the one function `flatOut` of the arrays as the region finds them. -/
theorem flushed_eq (c : Dev nD) (t : Fin cfg0.N) :
    (dats m 0 c).flushed 3 t
      = ((cfg0.win 3).blk t).view.read (Elt Ideal) (flatOut (V m c main_v12) (V m c main_v11) (V m c main_v13)) := by
  show (cfg0.win 3).cut (grid0.coords t) ((dats m 0 c).after 3 t) = _
  rw [after0_3]
  unfold outsAt0
  rw [out_eq]
  funext j
  obtain ⟨p, o, rfl⟩ : ∃ (p : Fin 512) (o : Fin 2048), j = ix2 p o := ⟨j 0, j 1, eq_ix2 j⟩
  rw [View.read_apply, emb_out]
  refine (entry_apply (iblk m c 0 t) (iblk m c 1 t) (iblk m c 2 t) p o).trans ?_
  unfold flatOut
  simp only [blk_x, blk_w, blk_b]
  rfl

/-- An index of the array is in point `t`'s block iff each coordinate is in the block's range. -/
theorem mem_blk (t : Fin cfg0.N) (i : S32768x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v14).slice (win0_3.rect t)).set ↔ _
  rw [View.set_slice_whole, Rect.mem_set_unit]
  exact Iff.rfl

/-- Every entry of the output array is in the block of the point `r / 512`. -/
theorem cover (i : S32768x2048.Idx) : ∃ t : Fin cfg0.N, (cfg0.win 3).flush t = true ∧ i ∈ ((cfg0.win 3).blk t).view.set := by
  have hN : cfg0.N = 64 := N_0
  have hi0 : (i 0).val < 32768 := (i 0).isLt
  have hi1 : (i 1).val < 2048 := (i 1).isLt
  let t : Fin cfg0.N := ⟨(i 0).val / 512, by omega⟩
  obtain ⟨-, -, -, -, -, -, e0, e1⟩ := idx_facts t
  have ht : t.val = (i 0).val / 512 := rfl
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- The output array after the run. -/
theorem final (c : Dev nD) :
    (dats m 0 c).arrAt 3 cfg0.N = flatOut (V m c main_v12) (V m c main_v11) (V m c main_v13) :=
  (dats m 0 c).arrAt_eq_of_cover 3 _ (fun t _ => flushed_eq m c t) (cover)

/-- The program's result as a function of its three arguments. -/
def result (x : S4x8192x2048.Idx → EReal) (w : S2048x2048.Idx → EReal) (b : S2048.Idx → EReal) : S4x8192x2048.Idx → EReal :=
  shapeCast S4x8192x2048
    (flatOut (shapeCast S32768x2048 x Facts₀.shapeCasts_S4x8192x2048_S32768x2048)
      (truncf (F := Ideal) .bf16 (transpose S2048x2048 [1, 0] (qWeight (F := Ideal) w) Facts₀.transposes_S2048x2048_S2048x2048_1_0) Facts₀.bitsLt_bf16_f32)
      (shapeCast S1x2048 b Facts₀.shapeCasts_S2048_S1x2048))
    Facts₀.shapeCasts_S32768x2048_S4x8192x2048

/-- The run, read: the result buffer at `result` of the arguments, the arguments unchanged. -/
theorem run : θ_run defs (onTc (τ := τ) (main (F := Ideal))) ⟨m, fun _ => 0, ρ⟩ fun r => ∀ c : Dev nD,
      r.2.mem ((c.tc : Thread nD τ).loc main_v15)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans
        ((exit_y m c).trans (by rw [final, entry_x, entry_w, entry_b]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ArrayValue

end
-- ==== Proof.RefValue.lean ====
/-
  The reference's result, read entry by entry on the extended reals.

  Entry `(b, s, o)` of the reference's result is the inner product of row `(b, s)` of the activations, quantized by
  dividing by the row's step `max(maxₖ |x b s k|, ε) / 127`, with row `o` of the quantized weight matrix, plus bias
  entry `o`. The quantized weight matrix is kept as one function of the weight argument.
-/
import proofs.«111622_j33449205301739_2_alg».proof.Proof.Gen.ReferenceIdeal.Read
import proofs.«111622_j33449205301739_2_alg».proof.Proof.QuantSpec
import Idealize.ShloMosaic.Lib.ValueIdx
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.ReferenceIdeal.Read Cert.QuantSpec Idealize.ShloMosaic.ValueIdx

/-- A row's running maximum over the last axis, on the host. -/
theorem rowMax_apply (v : S4x8192x2048.Idx → Ideal .f32) (init : S_.Idx → Ideal .f32) (h' : S4x8192x2048.ReducesTo [2] S4x8192)
    (hu : 0 < S_.numel) (b : Fin 4) (s : Fin 8192) :
    Host.reduce (FloatOps.maximumf (F := Ideal) (φ := .f32)) v init h' hu (ix2 b s)
      = (Finset.univ : Finset (Fin 2048)).fold max (init (Shape.Idx.first hu)) fun k => v (ix3 b s k) := by
  have h : S4x8192x2048.Reduces [2] S4x8192 := by decide
  refine (Host.reduce_eq_fold_single (FloatOps.maximumf (F := Ideal) (φ := .f32)) v init h' h hu (ix2 b s)).trans ?_
  have e : (v ∘ h.lift (ix2 b s)) = fun k : Fin 2048 => v (ix3 b s k) :=
    funext fun k => congrArg v (funext fun c => Fin.ext (by
      match c with
      | ⟨0, _⟩ => rfl
      | ⟨1, _⟩ => rfl
      | ⟨2, _⟩ => rfl))
  rw [e]
  rfl

theorem absRow (x : S4x8192x2048.Idx → Ideal .f32) (b : Fin 4) (s : Fin 8192) :
    (fun k : Fin 2048 => val_main_v10 (F := Ideal) x (ix3 b s k)) = fun k => max (x (ix3 b s k)) (-(x (ix3 b s k))) := rfl

/-- Row `(b, s)`'s step. -/
theorem step_apply (x : S4x8192x2048.Idx → Ideal .f32) (b : Fin 4) (s : Fin 8192) (u : Fin 1) :
    val_main_v16 (F := Ideal) x (ix3 b s u) = stepOf (absMax fun k => x (ix3 b s k)) := by
  rw [val_main_v16_apply, val_main_v14_apply, val_main_v12_apply, val_main_v13_apply, val_main_v15_apply,
    val_main_cst_5_apply, val_main_cst_6_apply,
    show idx_main_v12 (ix3 b s u) = ix2 b s from funext fun a => Fin.ext (by
      match a with
      | ⟨0, _⟩ => rfl
      | ⟨1, _⟩ => rfl)]
  unfold val_main_v11
  rw [rowMax_apply, val_main_cst_4_apply, absRow, Ideal.hostDivf_def, Ideal.maximumf_def, Ideal.ofBits_def, Ideal.ofBits_def, Ideal.ofBits_def]
  rfl

/-- Entry `(b, s, k)` of the quantized activations. -/
theorem quant_apply (x : S4x8192x2048.Idx → Ideal .f32) (b : Fin 4) (s : Fin 8192) (k : Fin 2048) :
    val_main_v22 (F := Ideal) x (ix3 b s k) = quantDiv (stepOf (absMax fun j => x (ix3 b s j))) (x (ix3 b s k)) := by
  rw [val_main_v22_apply, val_main_v20_apply, val_main_call3_v4_apply, val_main_call3_v3_apply, val_main_cst_8_apply,
    val_main_call3_v2_apply, val_main_call3_v1_apply, val_main_call3_v0_apply, val_main_cst_7_apply,
    val_main_v19_apply, val_main_v18_apply, val_main_v17_apply, val_main_v21_apply,
    show idx_main_v17 (ix3 b s k) = ix3 b s (0 : Fin 1) from funext fun a => Fin.ext (by
      match a with
      | ⟨0, _⟩ => rfl
      | ⟨1, _⟩ => rfl
      | ⟨2, _⟩ => rfl),
    show idx_main_v21 (ix3 b s k) = ix3 b s (0 : Fin 1) from funext fun a => Fin.ext (by
      match a with
      | ⟨0, _⟩ => rfl
      | ⟨1, _⟩ => rfl
      | ⟨2, _⟩ => rfl),
    step_apply, Ideal.mulf_def, Ideal.minimumf_def, Ideal.maximumf_def, Ideal.hostUnary_roundeven_def, Ideal.hostDivf_def,
    Ideal.ofBits_def, Ideal.ofBits_def]
  rfl

/-- Entry `(b, s, o)` of the reference's result. -/
theorem result_apply (x : S4x8192x2048.Idx → Ideal .f32) (w : S2048x2048.Idx → Ideal .f32) (bias : S2048.Idx → Ideal .f32)
    (b : Fin 4) (s : Fin 8192) (o : Fin 2048) :
    val_main_v26 (F := Ideal) x w bias (ix3 b s o)
      = outAt (fun k => x (ix3 b s k)) (fun k => val_main_v9 (F := Ideal) w (ix2 o k)) (bias (ix1 o)) := by
  rw [val_main_v26_apply, val_main_v23_apply, val_main_v25_apply, val_main_v24_apply, Ideal.addf_def]
  unfold outAt
  refine congrArg₂ (· + ·) (Finset.sum_congr rfl fun k _ => ?_) (congrArg bias (funext fun a => Fin.ext (by
    match a with
    | ⟨0, _⟩ => rfl)))
  rw [show lidx_main_v23 (ix3 b s o) k = ix3 b s k from funext fun a => Fin.ext (by
      match a with
      | ⟨0, _⟩ => rfl
      | ⟨1, _⟩ => rfl
      | ⟨2, _⟩ => rfl),
    show ridx_main_v23 (ix3 b s o) k = ix2 o k from funext fun a => Fin.ext (by
      match a with
      | ⟨0, _⟩ => rfl
      | ⟨1, _⟩ => rfl),
    quant_apply]

end Cert.ReferenceIdeal.RefValue

end
-- ==== Proof.Bridge.lean ====
/-
  The two results are one function of the arguments.

  The kernel's program flattens the activations to 32768 rows, works row by row, and reshapes back; the reference
  works on the 4 × 8192 rows directly. Row `(b, s)` is flat row `8192 b + s`, and both reshapes keep the row-major
  position, so entry `(b, s, o)` of the kernel's result is flat entry `(8192 b + s, o)`, which reads row `(b, s)`
  of the activations. The kernel's weight matrix is the reference's quantized weight matrix transposed, so its column
  `o` is that matrix's row `o`; the bias row's entry `o` is bias entry `o`. Both entries are then the same inner
  product of the same quantized row with the same weights, plus the same bias.
-/
import proofs.«111622_j33449205301739_2_alg».proof.Proof.ArrayValue
import proofs.«111622_j33449205301739_2_alg».proof.Proof.RefValue
import Idealize.ShloMosaic.Lib.ValueLayout

noncomputable section

open Idealize.ShloMosaic Idealize.ShloMosaic.TcCoe Idealize.SL.Sem

namespace Cert.Proof.Bridge

open Cert.QuantSpec Idealize.ShloMosaic.ValueIdx
open Cert.KernelIdeal (S4x8192x2048 S32768x2048 S2048x2048 S2048 S1x2048)

/-- Row `(b, s)` of the 4 × 8192 rows is flat row `8192 b + s`. -/
def flatRow (b : Fin 4) (s : Fin 8192) : Fin 32768 :=
  ⟨8192 * b.val + s.val, by have := b.isLt; have := s.isLt; omega⟩

/-- Reshaping 32768 × 2048 to 4 × 8192 × 2048 reads entry `(b, s, o)` at flat entry `(8192 b + s, o)`. -/
theorem unflatten_apply (Y : S32768x2048.Idx → EReal) (h : S32768x2048.ShapeCasts S4x8192x2048) (b : Fin 4) (s : Fin 8192) (o : Fin 2048) :
    shapeCast S4x8192x2048 Y h (ix3 b s o) = Y (ix2 (flatRow b s) o) :=
  shapeCast_apply Y h _ _ (by
    rw [Shape.rowMajor_val_two, Shape.rowMajor_val_three]
    show (8192 * b.val + s.val) * 2048 + o.val = (b.val * 8192 + s.val) * 2048 + o.val
    omega)

/-- Reshaping 4 × 8192 × 2048 to 32768 × 2048 reads flat entry `(8192 b + s, k)` at entry `(b, s, k)`. -/
theorem flatten_apply (x : S4x8192x2048.Idx → EReal) (h : S4x8192x2048.ShapeCasts S32768x2048) (b : Fin 4) (s : Fin 8192) (k : Fin 2048) :
    shapeCast S32768x2048 x h (ix2 (flatRow b s) k) = x (ix3 b s k) :=
  shapeCast_apply x h _ _ (by
    rw [Shape.rowMajor_val_two, Shape.rowMajor_val_three]
    show (b.val * 8192 + s.val) * 2048 + k.val = (8192 * b.val + s.val) * 2048 + k.val
    omega)

/-- The kernel's program and the reference compute the same array from the same arguments. -/
theorem result_eq (x : S4x8192x2048.Idx → EReal) (w : S2048x2048.Idx → EReal) (bias : S2048.Idx → EReal) :
    Cert.ReferenceIdeal.Read.val_main_v26 (F := Ideal) x w bias = Cert.KernelIdeal.ArrayValue.result x w bias := by
  funext i
  obtain ⟨b, s, o, rfl⟩ : ∃ (b : Fin 4) (s : Fin 8192) (o : Fin 2048), i = ix3 b s o := ⟨i 0, i 1, i 2, eq_ix3 i⟩
  rw [Cert.ReferenceIdeal.RefValue.result_apply]
  unfold Cert.KernelIdeal.ArrayValue.result
  rw [unflatten_apply]
  unfold Cert.KernelIdeal.ArrayValue.flatOut
  refine congr (congr (congrArg outAt (funext fun k => ?_)) (funext fun k => ?_)) ?_
  · exact (flatten_apply x _ b s k).symm
  · rw [truncf_apply]
    exact (transpose_ix2_apply _ _ k o).symm
  · exact (shapeCast_a_1a_apply bias _ (0 : Fin 1) o).symm

end Cert.Proof.Bridge

end
-- ==== Proof.lean ====
/-
  A quantized linear layer: the kernel's program against its jnp reference, on the extended reals.

  Both programs quantize the weight matrix once (by the same host operations, kept here as one function of the weight
  argument) and quantize each row of activations to a multiple of the row's step `max(maxₖ |xₖ|, ε) / 127`; the result
  entry is the inner product of the quantized row with a quantized weight row, plus a bias entry.

  They differ in three ways, none of which changes the value on the extended reals.
  * The kernel multiplies each activation by the reciprocal `1 / s` of the row's step where the reference divides by
    `s`. The step is a positive number (possibly +∞) times `1/127`, so it is never zero, and for a nonzero divisor the
    product with the reciprocal is the quotient. No entry needs to be finite for this.
  * The kernel starts each output entry at the bias and adds four partial sums over 512 columns each; the reference
    takes the whole sum over 2048 columns and then adds the bias. Addition of extended reals is commutative and
    associative.
  * The kernel works on the activations flattened to 32768 rows, 512 rows per grid point, and on the weight matrix
    transposed and narrowed to a shorter float format; reshapes keep the row-major position, a transpose swaps the two
    indices, and a change of float format is the identity on the extended reals.

  The three frames: the two kernel programs' are the generated frame runs; the reference has no kernel and its frame is
  its run with the result dropped. The idealization rewrote nothing, so the kernel's idealized program is its own text.
-/
import proofs.«111622_j33449205301739_2_alg».proof.Defs
import proofs.«111622_j33449205301739_2_alg».proof.Proof.Gen.Kernel
import proofs.«111622_j33449205301739_2_alg».proof.Proof.Gen.Kernel.Frame
import proofs.«111622_j33449205301739_2_alg».proof.Proof.Gen.KernelIdeal
import proofs.«111622_j33449205301739_2_alg».proof.Proof.Gen.KernelIdeal.Frame
import proofs.«111622_j33449205301739_2_alg».proof.Proof.Gen.ReferenceIdeal
import proofs.«111622_j33449205301739_2_alg».proof.Proof.Gen.ReferenceIdeal.Run
import proofs.«111622_j33449205301739_2_alg».proof.Proof.Gen.ReferenceIdeal.Read
import proofs.«111622_j33449205301739_2_alg».proof.Proof.Gen.Pre_finite_inputs
import proofs.«111622_j33449205301739_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments both programs end with the same result array: the kernel's at
    `ArrayValue.result` of the arguments, the reference's at its own composed term, which is the same function. -/
theorem algebraic : Cert.algebraic_KernelIdeal_ReferenceIdeal := by
  intro m ρ m' ρ' _ hagree
  refine ⟨fun c => Cert.KernelIdeal.ArrayValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v26_eq _ _ _).trans (Cert.Proof.Bridge.result_eq _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
